-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 105
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S850000x1, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S850000x1, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x64, .f32⟩
  | .hbm, ⟨87, _⟩ => ⟨S850000x1, .f32⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000x64, .f32⟩
  | .hbm, ⟨97, _⟩ => ⟨S850000x64, .f32⟩
  | .hbm, ⟨98, _⟩ => ⟨S850000x64, .f32⟩
  | .hbm, ⟨99, _⟩ => ⟨S_, .f32⟩
  | .hbm, ⟨100, _⟩ => ⟨S50000x64, .f32⟩
  | .hbm, ⟨101, _⟩ => ⟨S850000x1, .i32⟩
  | .hbm, ⟨102, _⟩ => ⟨S50000x64, .f32⟩
  | .hbm, ⟨103, _⟩ => ⟨S1x64, .f32⟩
  | .hbm, ⟨104, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 152
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S50000x128, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S850000x1, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000, .f32⟩
  | 90 => ⟨S850000, .f32⟩
  | 91 => ⟨S850000x1, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x128, .f32⟩
  | 101 => ⟨S850000x128, .f32⟩
  | 102 => ⟨S850000x128, .f32⟩
  | 103 => ⟨S_, .f32⟩
  | 104 => ⟨S50000x128, .f32⟩
  | 105 => ⟨S850000x1, .i32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S50000x64, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000, .f32⟩
  | 123 => ⟨S_, .i32⟩
  | 124 => ⟨S850000, .i32⟩
  | 125 => ⟨S850000, .i1⟩
  | 126 => ⟨S_, .i32⟩
  | 127 => ⟨S850000, .i32⟩
  | _ => ⟨S50000x128, .f32⟩

abbrev hbmTy0_1 (i : Nat) : BufTy := match i % 128 with
  | 0 => ⟨S850000, .i32⟩
  | 1 => ⟨S850000, .i32⟩
  | 2 => ⟨S850000x1, .i32⟩
  | 3 => ⟨S850000, .f32⟩
  | 4 => ⟨S850000, .f32⟩
  | 5 => ⟨S850000x1, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x64, .f32⟩
  | 15 => ⟨S850000x64, .f32⟩
  | 16 => ⟨S850000x64, .f32⟩
  | 17 => ⟨S_, .f32⟩
  | 18 => ⟨S50000x64, .f32⟩
  | 19 => ⟨S850000x1, .i32⟩
  | 20 => ⟨S50000x64, .f32⟩
  | 21 => ⟨S1x64, .f32⟩
  | 22 => ⟨S50000x64, .f32⟩
  | 23 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_c_16 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_18 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_20 : Ref sig .tc := ⟨.hbm, 134, rfl⟩
abbrev main_v98 : Ref sig .tc := ⟨.hbm, 135, rfl⟩
abbrev main_v99 : Ref sig .tc := ⟨.hbm, 136, rfl⟩
abbrev main_c_21 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_22 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KRun.lean ====
/-
  The idealized kernel's run with its result NAMED.

  @main is twelve segments: six stretches of host operations and six kernel regions.  The buffer contents at each
  boundary are a fold from the launch memory (`W0` … `W12`): a host stretch applies its operations, a region replaces
  its output array by what its grid points wrote back and leaves every other buffer.  Every weakly fair execution
  terminates, nothing faults, and at the end every buffer that outlives a region holds the last boundary's contents
  `W12`; read at the result buffer that names the result, read at an argument (which nothing writes) it gives the
  launch contents back.
-/
import proofs.«171593_j36550171689598_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents, the arguments as launched. -/
theorem run_main : θ_run defs (onTc (τ := τ) (main (F := F))) ⟨m, fun _ => 0, ρ⟩ (fun r => ∀ c : Dev nD,
      r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.RunV

end
-- ==== Proof.Spec.lean ====
/-
  The network both programs compute, as ONE term over four layer parts.

  A node array h : [50000, K] goes through three graph-convolution layers.  Each layer applies a dense map (h · W),
  then an aggregation over the 850000 edges (the 800000 listed edges followed by one self loop per node): every edge
  (s → d) carries row s of the dense result scaled by norm(edge) = deg(s)^(-1/2) · deg(d)^(-1/2) into row d, where the
  rows landing in one node are summed; then a bias row is added, and the first two layers end with the rectifier.
  The aggregation is the SAME host computation in both programs (a gather of rows, an elementwise product, a
  scatter-add into zeros), so it is kept here as one function `agg` of the edge ends, the edge weights and the node
  array and is never opened: the two programs differ only in how the dense map and the bias/rectifier are computed,
  and those four parts are the parameters of `net`.
-/
import proofs.«171593_j36550171689598_1_alg».proof.ReferenceIdeal
import proofs.«171593_j36550171689598_1_alg».proof.Proof.Gen.ReferenceIdeal
import Idealize.ShloMosaic.PureOps.Ideal

noncomputable section

namespace Cert.Gcn

open Cert.ReferenceIdeal Cert.ReferenceIdeal.Gen Idealize.ShloMosaic

/-- Row `0` of the edge list (the source nodes) followed by the self loops 0, 1, …, 49999. -/
def ends0 (e : IVec S2x800000 32) : IVec S850000 32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- Row `1` of the edge list (the target nodes) followed by the self loops. -/
def ends1 (e : IVec S2x800000 32) : IVec S850000 32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative node number is counted from the end (50000 is added to it); any other is left alone. -/
def wrap (v : IVec S850000 32) : IVec S850000 32 :=
  select (cmpi .slt v (broadcastInDim S850000 ![] bcast_S_S850000 (constantI S_ 32 0#32))) (addi v (broadcastInDim S850000 ![] bcast_S_S850000 (constantI S_ 32 50000#32))) v

/-- The in-degree of every node, self loop included: ones summed into the target nodes. -/
def deg (e : IVec S2x800000 32) : FVec Ideal S50000 .f32 :=
  Host.scatterAdd (F := Ideal) scatter_S50000_S850000x1_S850000_n_0_0_1 (broadcastInDim S50000 ![] bcast_S_S50000 (constant (F := Ideal) S_ .f32 0x00000000#32)) (broadcastInDim S850000x1 ![0] bcast_S850000_S850000x1_0 (ends1 e)) (broadcastInDim S850000 ![] bcast_S_S850000 (constant (F := Ideal) S_ .f32 0x3F800000#32))

/-- Which nodes have a positive degree. -/
def degPos (e : IVec S2x800000 32) : IVec S50000 1 :=
  cmpf (F := Ideal) .ogt (deg e) (broadcastInDim S50000 ![] bcast_S_S50000 (constant (F := Ideal) S_ .f32 0x00000000#32))

/-- deg^(-1/2), node by node. -/
def degRsqrt (e : IVec S2x800000 32) : FVec Ideal S50000 .f32 := Host.rsqrt (F := Ideal) (deg e)

/-- The scalar zero. -/
def zero0 : FVec Ideal S_ .f32 := constant (F := Ideal) S_ .f32 0x00000000#32

/-- `r` where `p` holds, the scalar `z` elsewhere. -/
def disOf (p : IVec S50000 1) (r : FVec Ideal S50000 .f32) (z : FVec Ideal S_ .f32) : FVec Ideal S50000 .f32 :=
  select p r (broadcastInDim S50000 ![] bcast_S_S50000 (id z))

/-- deg^(-1/2) where the degree is positive, zero elsewhere. -/
def dis (e : IVec S2x800000 32) : FVec Ideal S50000 .f32 := disOf (degPos e) (degRsqrt e) zero0

/-- The weight of every edge from a per-node factor `d`: d(source) · d(target). -/
def normOf (d : FVec Ideal S50000 .f32) (s t : IVec S850000 32) : FVec Ideal S850000 .f32 :=
  mulf (Host.gather gather_S50000_S850000x1_S850000_n_0_n_n_0_1_1 d (broadcastInDim S850000x1 ![0] bcast_S850000_S850000x1_0 (wrap s))) (Host.gather gather_S50000_S850000x1_S850000_n_0_n_n_0_1_1 d (broadcastInDim S850000x1 ![0] bcast_S850000_S850000x1_0 (wrap t)))

/-- The weight of every edge: deg(source)^(-1/2) · deg(target)^(-1/2). -/
def norm (e : IVec S2x800000 32) : FVec Ideal S850000 .f32 := normOf (dis e) (ends0 e) (ends1 e)

/-- The aggregation of a [50000, 128] node array over the edges with source ends `s`, target ends `d` and weights `n`. -/
def agg128 (s d : IVec S850000 32) (n : FVec Ideal S850000 .f32) (h : FVec Ideal S50000x128 .f32) : FVec Ideal S50000x128 .f32 :=
  Host.scatterAdd (F := Ideal) scatter_S50000x128_S850000x1_S850000x128_1_0_0_1 (broadcastInDim S50000x128 ![] bcast_S_S50000x128 (constant (F := Ideal) S_ .f32 0x00000000#32)) (broadcastInDim S850000x1 ![0] bcast_S850000_S850000x1_0 d) (mulf (broadcastInDim S850000x128 ![0, 1] bcast_S850000x1_S850000x128_0_1 (broadcastInDim S850000x1 ![0] bcast_S850000_S850000x1_0 n)) (Host.gather gather_S50000x128_S850000x1_S850000x128_1_0_n_n_0_1_1128 h (broadcastInDim S850000x1 ![0] bcast_S850000_S850000x1_0 (wrap s))))

/-- The same for a [50000, 64] node array. -/
def agg64 (s d : IVec S850000 32) (n : FVec Ideal S850000 .f32) (h : FVec Ideal S50000x64 .f32) : FVec Ideal S50000x64 .f32 :=
  Host.scatterAdd (F := Ideal) scatter_S50000x64_S850000x1_S850000x64_1_0_0_1 (broadcastInDim S50000x64 ![] bcast_S_S50000x64 (constant (F := Ideal) S_ .f32 0x00000000#32)) (broadcastInDim S850000x1 ![0] bcast_S850000_S850000x1_0 d) (mulf (broadcastInDim S850000x64 ![0, 1] bcast_S850000x1_S850000x64_0_1 (broadcastInDim S850000x1 ![0] bcast_S850000_S850000x1_0 n)) (Host.gather gather_S50000x64_S850000x1_S850000x64_1_0_n_n_0_1_164 h (broadcastInDim S850000x1 ![0] bcast_S850000_S850000x1_0 (wrap s))))

/-- The three layers over a dense map per width (`d128`, `d64`), the hidden layers' bias-and-rectifier (`act128`) and the
    last layer's bias (`out64`). -/
def net (d128 : FVec Ideal S50000x128 .f32 → FVec Ideal S128x128 .f32 → FVec Ideal S50000x128 .f32)
    (d64 : FVec Ideal S50000x128 .f32 → FVec Ideal S128x64 .f32 → FVec Ideal S50000x64 .f32)
    (act128 : FVec Ideal S50000x128 .f32 → FVec Ideal S128 .f32 → FVec Ideal S50000x128 .f32)
    (out64 : FVec Ideal S50000x64 .f32 → FVec Ideal S64 .f32 → FVec Ideal S50000x64 .f32)
    (e : IVec S2x800000 32) (x : FVec Ideal S50000x128 .f32)
    (w1 : FVec Ideal S128x128 .f32) (b1 : FVec Ideal S128 .f32) (w2 : FVec Ideal S128x128 .f32) (b2 : FVec Ideal S128 .f32)
    (w3 : FVec Ideal S128x64 .f32) (b3 : FVec Ideal S64 .f32) : FVec Ideal S50000x64 .f32 :=
  out64 (agg64 (ends0 e) (ends1 e) (norm e)
    (d64 (act128 (agg128 (ends0 e) (ends1 e) (norm e)
      (d128 (act128 (agg128 (ends0 e) (ends1 e) (norm e) (d128 x w1)) b1) w2)) b2) w3)) b3

/-- The host's dense maps: jnp's matrix product. -/
def hostD128 (l : FVec Ideal S50000x128 .f32) (r : FVec Ideal S128x128 .f32) : FVec Ideal S50000x128 .f32 :=
  Host.dotGeneral (F := Ideal) dot_S50000x128_S128x128_S50000x128_1_0_0_1_n_n none l r
def hostD64 (l : FVec Ideal S50000x128 .f32) (r : FVec Ideal S128x64 .f32) : FVec Ideal S50000x64 .f32 :=
  Host.dotGeneral (F := Ideal) dot_S50000x128_S128x64_S50000x64_1_0_0_1_n_n none l r

/-- The host's bias and rectifier: the bias laid out as a row, repeated down the rows, added; the larger of that and zero. -/
def hostAct128 (a : FVec Ideal S50000x128 .f32) (b : FVec Ideal S128 .f32) : FVec Ideal S50000x128 .f32 :=
  maximumf (addf a (broadcastInDim S50000x128 ![0, 1] bcast_S1x128_S50000x128_0_1 (broadcastInDim S1x128 ![1] bcast_S128_S1x128_1 b))) (broadcastInDim S50000x128 ![] bcast_S_S50000x128 (constant (F := Ideal) S_ .f32 0x00000000#32))
def hostOut64 (a : FVec Ideal S50000x64 .f32) (b : FVec Ideal S64 .f32) : FVec Ideal S50000x64 .f32 :=
  addf a (broadcastInDim S50000x64 ![0, 1] bcast_S1x64_S50000x64_0_1 (broadcastInDim S1x64 ![1] bcast_S64_S1x64_1 b))

end Cert.Gcn

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.Parts.lean ====
/-
  The kernel's layer parts against the host's.

  The dense map.  The kernel multiplies blocks of rows on the matrix unit; the host calls jnp's matrix product.  On the
  extended reals both are the row-by-column sum ∑ k, a (r, k) · w (k, j).

  The bias and the rectifier.  The kernel lays the bias [d] out as a row [1, d] and repeats the row down the rows inside
  the kernel; the host lays it out as [1, d] by a broadcast and repeats it by another.  Either way entry (r, j) of the
  repeated array is b j, so both layers are a (r, j) + b j, and the rectified one the larger of that and the zero
  word's value.  No finiteness is used: these are equalities of sums, sums and maxima of the same extended reals.
-/
import proofs.«171593_j36550171689598_1_alg».proof.Proof.Spec
import proofs.«171593_j36550171689598_1_alg».proof.Proof.LibDense
import proofs.«171593_j36550171689598_1_alg».proof.Proof.LibBiasRows
import Idealize.ShloMosaic.Lib.Pipeline.Value
import Idealize.ShloMosaic.Lib.ValueIdx
import Idealize.ShloMosaic.Lib.IdealHost
import Idealize.ShloMosaic.PureOps.Ideal.Laws

noncomputable section

namespace Cert.Gcn

open Cert.ReferenceIdeal Cert.ReferenceIdeal.Gen Idealize.ShloMosaic Idealize.ShloMosaic.ValueIdx

theorem casts128 : S128.ShapeCasts S1x128 := by decide
theorem casts64 : S64.ShapeCasts S1x64 := by decide

/-- The kernel's dense maps: the row-by-column sums. -/
def kerD128 (a : FVec Ideal S50000x128 .f32) (w : FVec Ideal S128x128 .f32) : FVec Ideal S50000x128 .f32 :=
  Cert.LibDense.prod (n := 50000) (K := 128) (d := 128) a w
def kerD64 (a : FVec Ideal S50000x128 .f32) (w : FVec Ideal S128x64 .f32) : FVec Ideal S50000x64 .f32 :=
  Cert.LibDense.prod (n := 50000) (K := 128) (d := 64) a w

/-- The kernel's bias and rectifier: the bias laid out as a row, added to every row, rectified. -/
def kerAct128 (a : FVec Ideal S50000x128 .f32) (b : FVec Ideal S128 .f32) : FVec Ideal S50000x128 .f32 :=
  Cert.LibBiasRows.reluRow (n := 50000) (d := 128) a (shapeCast S1x128 b casts128)
/-- The kernel's last bias: no rectifier. -/
def kerOut64 (a : FVec Ideal S50000x64 .f32) (b : FVec Ideal S64 .f32) : FVec Ideal S50000x64 .f32 :=
  Cert.LibBiasRows.addRow (n := 50000) (d := 64) a (shapeCast S1x64 b casts64)

theorem kerD128_eq : kerD128 = hostD128 := by
  funext a w i
  unfold kerD128 hostD128
  exact (Cert.LibDense.dotGeneral_plain (M := 50000) (K := 128) (N := 128) .single a w i).symm

theorem kerD64_eq : kerD64 = hostD64 := by
  funext a w i
  unfold kerD64 hostD64
  exact (Cert.LibDense.dotGeneral_plain (M := 50000) (K := 128) (N := 64) .single a w i).symm

/-- The host's two broadcasts of a bias [d] to [n, d], at entry (r, j), give b j. -/
theorem host_bias128 (b : FVec Ideal S128 .f32) (i : S50000x128.Idx) :
    broadcastInDim S50000x128 ![0, 1] bcast_S1x128_S50000x128_0_1 (broadcastInDim S1x128 ![1] bcast_S128_S1x128_1 b) i
      = b (ix1 (n := 128) (i 1)) := by
  refine (broadcastInDim_apply ![0, 1] bcast_S1x128_S50000x128_0_1 _ i (ix2 (n0 := 1) (n1 := 128) ⟨0, Nat.one_pos⟩ (i 1)) (fun a => ?_)).trans ?_
  · match a with
    | ⟨0, _⟩ => rfl
    | ⟨1, _⟩ => rfl
  · refine broadcastInDim_apply ![1] bcast_S128_S1x128_1 b _ (ix1 (n := 128) (i 1)) (fun a => ?_)
    match a with
    | ⟨0, _⟩ => rfl

theorem host_bias64 (b : FVec Ideal S64 .f32) (i : S50000x64.Idx) :
    broadcastInDim S50000x64 ![0, 1] bcast_S1x64_S50000x64_0_1 (broadcastInDim S1x64 ![1] bcast_S64_S1x64_1 b) i
      = b (ix1 (n := 64) (i 1)) := by
  refine (broadcastInDim_apply ![0, 1] bcast_S1x64_S50000x64_0_1 _ i (ix2 (n0 := 1) (n1 := 64) ⟨0, Nat.one_pos⟩ (i 1)) (fun a => ?_)).trans ?_
  · match a with
    | ⟨0, _⟩ => rfl
    | ⟨1, _⟩ => rfl
  · refine broadcastInDim_apply ![1] bcast_S64_S1x64_1 b _ (ix1 (n := 64) (i 1)) (fun a => ?_)
    match a with
    | ⟨0, _⟩ => rfl

theorem kerAct128_eq : kerAct128 = hostAct128 := by
  funext a b i
  unfold kerAct128 hostAct128 Cert.LibBiasRows.reluRow Cert.LibBiasRows.addRow
  show max (a i + shapeCast S1x128 b casts128 (ix2 ⟨0, Nat.one_pos⟩ (i 1))) (Ideal.ofBits .f32 0x00000000#32)
    = max (a i + broadcastInDim S50000x128 ![0, 1] bcast_S1x128_S50000x128_0_1 (broadcastInDim S1x128 ![1] bcast_S128_S1x128_1 b) i)
        (broadcastInDim S50000x128 ![] bcast_S_S50000x128 (constant (F := Ideal) S_ .f32 0x00000000#32) i)
  rw [Cert.LibBiasRows.row_of_vector (d := 128) b casts128 (i 1), host_bias128 b i,
    broadcastInDim_scalar_apply bcast_S_S50000x128 (constant (F := Ideal) S_ .f32 0x00000000#32) i]
  rfl

theorem kerOut64_eq : kerOut64 = hostOut64 := by
  funext a b i
  unfold kerOut64 hostOut64 Cert.LibBiasRows.addRow
  show a i + shapeCast S1x64 b casts64 (ix2 ⟨0, Nat.one_pos⟩ (i 1))
    = a i + broadcastInDim S50000x64 ![0, 1] bcast_S1x64_S50000x64_0_1 (broadcastInDim S1x64 ![1] bcast_S64_S1x64_1 b) i
  rw [Cert.LibBiasRows.row_of_vector (d := 64) b casts64 (i 1), host_bias64 b i]

end Cert.Gcn

end
-- ==== Proof.HostK.lean ====
/-
  The host stretches of the kernel's @main, read as functions of the buffers they start from.

  Before the first region three stretches build, from the edge list alone, the 850000 source ends, the 850000 target
  ends (each the listed edges followed by one self loop per node) and the weight of every edge.  After each dense
  region one stretch gathers the rows of the dense result at the source ends, scales them by the edge weights, sums
  them into the target ends' rows of a zero array, and lays the layer's bias out as a row: the aggregation `agg` of the
  network's description, applied to buffers that were written once at the start and never again.  Every lemma here is
  stated over an arbitrary valuation the stretch starts from.
-/
import proofs.«171593_j36550171689598_1_alg».proof.Proof.Gen.KernelIdeal.Launch
import proofs.«171593_j36550171689598_1_alg».proof.Proof.Spec
import Idealize.ShloMosaic.Lib.StableHlo.Run

set_option maxRecDepth 16384

noncomputable section

namespace Cert.KernelIdeal.HostK

open Cert.KernelIdeal Cert.KernelIdeal.Gen
open Idealize.ShloMosaic Idealize.ShloMosaic.TcCoe Idealize.SL.Sem

variable (W : Valuation τ sig (Elt Ideal))

/-! ## Before the first region -/

/-- The three stretches before the first region, as one fold. -/
abbrev pre : Valuation τ sig (Elt Ideal) :=
  StableHlo.after hostOps0_2 (StableHlo.after hostOps0_1 (StableHlo.after hostOps0 W))

set_option maxHeartbeats 4000000 in
/-- The source ends. -/
theorem pre_v3 : pre W (Proc.devRef .tc main_v3) = Cert.Gcn.ends0 (W (Proc.devRef .tc main_arg1)) := by
  dsimp only [pre, hostOps0, hostOps0_1, hostOps0_2]
  after_results_simp
  rfl

set_option maxHeartbeats 4000000 in
/-- The target ends. -/
theorem pre_v6 : pre W (Proc.devRef .tc main_v6) = Cert.Gcn.ends1 (W (Proc.devRef .tc main_arg1)) := by
  dsimp only [pre, hostOps0, hostOps0_1, hostOps0_2]
  after_results_simp
  rfl

/-! The edge weights, stretch by stretch: the first stretch leaves the degree's sign test, its inverse square root and the
    scalar zero; the second (the outlined `where`) selects between them; the third gathers the selected factor at both ends
    of every edge and multiplies. -/

theorem s0_v3 : StableHlo.after hostOps0 W (Proc.devRef .tc main_v3) = Cert.Gcn.ends0 (W (Proc.devRef .tc main_arg1)) := by
  dsimp only [hostOps0]; after_results_simp; rfl
theorem s0_v6 : StableHlo.after hostOps0 W (Proc.devRef .tc main_v6) = Cert.Gcn.ends1 (W (Proc.devRef .tc main_arg1)) := by
  dsimp only [hostOps0]; after_results_simp; rfl
theorem s0_v12 : StableHlo.after hostOps0 W (Proc.devRef .tc main_v12) = Cert.Gcn.degPos (W (Proc.devRef .tc main_arg1)) := by
  dsimp only [hostOps0]; after_results_simp; rfl
theorem s0_v13 : StableHlo.after hostOps0 W (Proc.devRef .tc main_v13) = Cert.Gcn.degRsqrt (W (Proc.devRef .tc main_arg1)) := by
  dsimp only [hostOps0]; after_results_simp; rfl
theorem s0_cst2 : StableHlo.after hostOps0 W (Proc.devRef .tc main_cst_2) = Cert.Gcn.zero0 := by
  dsimp only [hostOps0]; after_results_simp; rfl

theorem s1_v14 : StableHlo.after hostOps0_1 W (Proc.devRef .tc main_v14)
    = Cert.Gcn.disOf (W (Proc.devRef .tc main_v12)) (W (Proc.devRef .tc main_v13)) (W (Proc.devRef .tc main_cst_2)) := by
  dsimp only [hostOps0_1]; after_results_simp; rfl
theorem s1_v3 : StableHlo.after hostOps0_1 W (Proc.devRef .tc main_v3) = W (Proc.devRef .tc main_v3) := by
  dsimp only [hostOps0_1]; after_results_simp <;> rfl
theorem s1_v6 : StableHlo.after hostOps0_1 W (Proc.devRef .tc main_v6) = W (Proc.devRef .tc main_v6) := by
  dsimp only [hostOps0_1]; after_results_simp <;> rfl

theorem s2_v29 : StableHlo.after hostOps0_2 W (Proc.devRef .tc main_v29)
    = Cert.Gcn.normOf (W (Proc.devRef .tc main_v14)) (W (Proc.devRef .tc main_v3)) (W (Proc.devRef .tc main_v6)) := by
  dsimp only [hostOps0_2]; after_results_simp; rfl

theorem congr3 {α β γ δ : Sort _} (f : α → β → γ → δ) {a a' : α} {b b' : β} {x x' : γ}
    (ha : a = a') (hb : b = b') (hx : x = x') : f a b x = f a' b' x' := by
  subst ha hb hx; rfl

/-- The edge weights. -/
theorem pre_v29 : pre W (Proc.devRef .tc main_v29) = Cert.Gcn.norm (W (Proc.devRef .tc main_arg1)) := by
  refine (s2_v29 (StableHlo.after hostOps0_1 (StableHlo.after hostOps0 W))).trans ?_
  exact congr3 Cert.Gcn.normOf
    ((s1_v14 (StableHlo.after hostOps0 W)).trans (congr3 Cert.Gcn.disOf (s0_v12 W) (s0_v13 W) (s0_cst2 W)))
    ((s1_v3 (StableHlo.after hostOps0 W)).trans (s0_v3 W))
    ((s1_v6 (StableHlo.after hostOps0 W)).trans (s0_v6 W))

/-- A buffer none of the three stretches writes. -/
local macro "pre_kept" : tactic =>
  `(tactic| (dsimp only [pre, hostOps0, hostOps0_1, hostOps0_2]; after_results_simp <;> rfl))

set_option maxHeartbeats 4000000 in
theorem pre_arg0 : pre W (Proc.devRef .tc main_arg0) = W (Proc.devRef .tc main_arg0) := by pre_kept
set_option maxHeartbeats 4000000 in
theorem pre_arg2 : pre W (Proc.devRef .tc main_arg2) = W (Proc.devRef .tc main_arg2) := by pre_kept
set_option maxHeartbeats 4000000 in
theorem pre_arg3 : pre W (Proc.devRef .tc main_arg3) = W (Proc.devRef .tc main_arg3) := by pre_kept
set_option maxHeartbeats 4000000 in
theorem pre_arg4 : pre W (Proc.devRef .tc main_arg4) = W (Proc.devRef .tc main_arg4) := by pre_kept
set_option maxHeartbeats 4000000 in
theorem pre_arg5 : pre W (Proc.devRef .tc main_arg5) = W (Proc.devRef .tc main_arg5) := by pre_kept
set_option maxHeartbeats 4000000 in
theorem pre_arg6 : pre W (Proc.devRef .tc main_arg6) = W (Proc.devRef .tc main_arg6) := by pre_kept
set_option maxHeartbeats 4000000 in
theorem pre_arg7 : pre W (Proc.devRef .tc main_arg7) = W (Proc.devRef .tc main_arg7) := by pre_kept

/-! ## What is carried from the start to every later stretch and region -/

/-- The edge ends, the edge weights and the five later arguments hold in `W'` what they held in `W`. -/
structure Carried (W W' : Valuation τ sig (Elt Ideal)) : Prop where
  v3 : W' (Proc.devRef .tc main_v3) = W (Proc.devRef .tc main_v3)
  v6 : W' (Proc.devRef .tc main_v6) = W (Proc.devRef .tc main_v6)
  v29 : W' (Proc.devRef .tc main_v29) = W (Proc.devRef .tc main_v29)
  a3 : W' (Proc.devRef .tc main_arg3) = W (Proc.devRef .tc main_arg3)
  a4 : W' (Proc.devRef .tc main_arg4) = W (Proc.devRef .tc main_arg4)
  a5 : W' (Proc.devRef .tc main_arg5) = W (Proc.devRef .tc main_arg5)
  a6 : W' (Proc.devRef .tc main_arg6) = W (Proc.devRef .tc main_arg6)
  a7 : W' (Proc.devRef .tc main_arg7) = W (Proc.devRef .tc main_arg7)

theorem Carried.trans {W W' W'' : Valuation τ sig (Elt Ideal)} (h : Carried W W') (h' : Carried W' W'') : Carried W W'' :=
  ⟨h'.v3.trans h.v3, h'.v6.trans h.v6, h'.v29.trans h.v29, h'.a3.trans h.a3, h'.a4.trans h.a4, h'.a5.trans h.a5,
    h'.a6.trans h.a6, h'.a7.trans h.a7⟩

/-- No operation of the stretch writes the buffer. -/
local macro "kept" : tactic =>
  `(tactic| (refine StableHlo.after_of_forall_not_mem _ _ (List.forall_iff_forall_mem.mp ?_)
             simp only [hostOps1, hostOps3, hostOps5, List.Forall, StableHlo.nullary_writes, StableHlo.unary_writes,
               StableHlo.binary_writes, StableHlo.ternary_writes, StableHlo.reshape_writes, Finset.mem_singleton]
             repeat' apply And.intro
             all_goals exact StableHlo.devRef_ne_of_ne (by decide)))

theorem carried1 : Carried W (StableHlo.after hostOps1 W) :=
  ⟨by kept, by kept, by kept, by kept, by kept, by kept, by kept, by kept⟩
theorem carried3 : Carried W (StableHlo.after hostOps3 W) :=
  ⟨by kept, by kept, by kept, by kept, by kept, by kept, by kept, by kept⟩
theorem carried5 : Carried W (StableHlo.after hostOps5 W) :=
  ⟨by kept, by kept, by kept, by kept, by kept, by kept, by kept, by kept⟩

/-! ## After each dense region -/

/-- After the first dense region: the aggregation of its result. -/
theorem h1_v43 : StableHlo.after hostOps1 W (Proc.devRef .tc main_v43)
    = Cert.Gcn.agg128 (W (Proc.devRef .tc main_v3)) (W (Proc.devRef .tc main_v6)) (W (Proc.devRef .tc main_v29)) (W (Proc.devRef .tc main_v30)) := by
  dsimp only [hostOps1]
  after_results_simp
  rfl

/-- … and the first bias as a row. -/
theorem h1_v44 : StableHlo.after hostOps1 W (Proc.devRef .tc main_v44)
    = (shapeCast S1x128 (W (Proc.devRef .tc main_arg3)) shapeCasts_S128_S1x128 : FVec Ideal S1x128 .f32) := by
  dsimp only [hostOps1]
  after_results_simp
  rfl

/-- After the second dense region. -/
theorem h3_v59 : StableHlo.after hostOps3 W (Proc.devRef .tc main_v59)
    = Cert.Gcn.agg128 (W (Proc.devRef .tc main_v3)) (W (Proc.devRef .tc main_v6)) (W (Proc.devRef .tc main_v29)) (W (Proc.devRef .tc main_v46)) := by
  dsimp only [hostOps3]
  after_results_simp
  rfl

theorem h3_v60 : StableHlo.after hostOps3 W (Proc.devRef .tc main_v60)
    = (shapeCast S1x128 (W (Proc.devRef .tc main_arg5)) shapeCasts_S128_S1x128 : FVec Ideal S1x128 .f32) := by
  dsimp only [hostOps3]
  after_results_simp
  rfl

/-- After the third dense region. -/
theorem h5_v75 : StableHlo.after hostOps5 W (Proc.devRef .tc main_v75)
    = Cert.Gcn.agg64 (W (Proc.devRef .tc main_v3)) (W (Proc.devRef .tc main_v6)) (W (Proc.devRef .tc main_v29)) (W (Proc.devRef .tc main_v62)) := by
  dsimp only [hostOps5]
  after_results_simp
  rfl

theorem h5_v76 : StableHlo.after hostOps5 W (Proc.devRef .tc main_v76)
    = (shapeCast S1x64 (W (Proc.devRef .tc main_arg7)) shapeCasts_S64_S1x64 : FVec Ideal S1x64 .f32) := by
  dsimp only [hostOps5]
  after_results_simp
  rfl

end Cert.KernelIdeal.HostK

end
-- ==== Proof.Mm0.lean ====
/-
    Kernel region 0: the dense map of one layer, a [50000, 128] node array times a [128, 128] weight matrix.

  The grid has ten points; point t loads rows 5000·t … 5000·t + 4999 of the node array and the whole weight matrix,
  multiplies them on the matrix unit into a zero accumulator, and writes the [5000, 128] product back as rows
  5000·t … of the result.  On the extended reals the matrix unit's product is the plain row-by-column sum
  ∑ k, a (r, k) · w (k, j) (a change of float format is the identity there), and entry (r, j) of it reads row r only:
  so the block point t writes is the block of the whole product, and the ten blocks tile the result's rows.
  Hence the result array ends as the row-by-column product of the node array and the weights as the region found them.
-/
import proofs.«171593_j36550171689598_1_alg».proof.Proof.Gen.KernelIdeal.Frame
import proofs.«171593_j36550171689598_1_alg».proof.Proof.LibDense
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Mm0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the row of the loaded block against the column of the loaded weights. -/
theorem pay_eq (x0 : Vec Ideal S5000x128 .f32) (x1 : Vec Ideal S128x128 .f32) (j : S5000x128.Idx) :
    k0_pay1 (F := Ideal) x0 x1 j = Cert.LibDense.prod (n := 5000) (K := 128) (d := 128) x0 x1 j := by
  unfold k0_pay1
  refine (Cert.LibDense.matmul_plain (M := 5000) (K := 128) (N := 128) (φ₁ := .bf16) (φ₂ := .bf16) (truncf .bf16 x0 bitsLt_bf16_f32) (truncf .bf16 x1 bitsLt_bf16_f32) j).trans ?_
  rfl

/-- An entry of the product reads one row of the left operand and one column of the right. -/
theorem prod_congr {n n' K d : ℕ} (a : (⟨2, ![n, K]⟩ : Shape).Idx → EReal) (a' : (⟨2, ![n', K]⟩ : Shape).Idx → EReal)
    (w w' : (⟨2, ![K, d]⟩ : Shape).Idx → EReal) (i : (⟨2, ![n, d]⟩ : Shape).Idx) (i' : (⟨2, ![n', d]⟩ : Shape).Idx)
    (ha : ∀ k : Fin K, a (ix2 (i 0) k) = a' (ix2 (i' 0) k)) (hw : ∀ k : Fin K, w (ix2 k (i 1)) = w' (ix2 k (i' 1))) :
    Cert.LibDense.prod a w i = Cert.LibDense.prod a' w' i' := by
  unfold Cert.LibDense.prod
  exact Finset.sum_congr rfl fun k _ => congrArg₂ (· * ·) (ha k) (hw k)

/-- The printed index maps over the ten grid points: the row windows sit at block t, the weights at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The node array's block at point t is its rows 5000·t …. -/
theorem blk_rows (c : Dev nD) (t : Fin cfg0.N) (y : S5000x128.Idx) (i : S50000x128.Idx)
    (h0 : (i 0).val = 5000 * t.val + (y 0).val) (h1 : (i 1).val = (y 1).val) :
    (iblk0 V c 0 t : Vec Ideal S5000x128 .f32) y = (V c (Pipeline.arrRef spec0 0) : S50000x128.Idx → EReal) i := by
  obtain ⟨e0, e1, -⟩ := idx_facts t
  unfold iblk0
  rw [View.read_apply]
  show (V c (Pipeline.arrRef spec0 0) : S50000x128.Idx → EReal) _ = (V c (Pipeline.arrRef spec0 0) : S50000x128.Idx → EReal) i
  refine congrArg (V c (Pipeline.arrRef spec0 0) : S50000x128.Idx → EReal) (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The weights' block at every point is the whole matrix. -/
theorem blk_weights (c : Dev nD) (t : Fin cfg0.N) (y : S128x128.Idx) :
    (iblk0 V c 1 t : Vec Ideal S128x128 .f32) y = (V c (Pipeline.arrRef spec0 1) : S128x128.Idx → EReal) y := by
  obtain ⟨-, -, e2, e3, -⟩ := idx_facts t
  unfold iblk0
  rw [View.read_apply]
  show (V c (Pipeline.arrRef spec0 1) : S128x128.Idx → EReal) _ = (V c (Pipeline.arrRef spec0 1) : S128x128.Idx → EReal) y
  refine congrArg (V c (Pipeline.arrRef spec0 1) : S128x128.Idx → EReal) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What point t writes back is block t of the whole product. -/
theorem flushed_eq (c : Dev nD) (t : Fin cfg0.N) :
    (dat0 V c).flushed 2 t = ((cfg0.win 2).blk t).view.read (Elt Ideal)
      (Cert.LibDense.prod (n := 50000) (K := 128) (d := 128) (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx_facts t
  funext j
  refine (pay_eq (iblk0 V c 0 t) (iblk0 V c 1 t) j).trans ?_
  refine prod_congr _ _ _ _ j (((cfg0.win 2).blk t).view.emb j) (fun k => ?_) (fun k => ?_)
  · refine blk_rows V c t _ _ ?_ ?_
    · show win0_2.index t (0 : Fin 2) * 5000 + 1 * (j 0).val = 5000 * t.val + (j 0).val; omega
    · rfl
  · refine (blk_weights V c t _).trans (congrArg _ (funext fun a => Fin.ext ?_))
    match a with
    | ⟨0, _⟩ => rfl
    | ⟨1, _⟩ => show (j 1).val = win0_2.index t (1 : Fin 2) * 128 + 1 * (j 1).val; omega

/-- An index of the result is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r of the result lies in the block of point r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region: the product of the node array and the weights as the region found them. -/
theorem final (c : Dev nD) :
    (dat0 V c).arrAt 2 cfg0.N
      = Cert.LibDense.prod (n := 50000) (K := 128) (d := 128) (V c (Pipeline.arrRef spec0 0)) (V c (Pipeline.arrRef spec0 1)) :=
  (dat0 V c).arrAt_eq_of_cover 2 _ (fun t _ => flushed_eq V c t) (fun i => cover i)

end Cert.KernelIdeal.Mm0

end
-- ==== Proof.Bs1.lean ====
/-
  Kernel region 1: a bias row added to every row of a [50000, 128] node array, then the rectifier.

  The grid has ten points; point t loads rows 5000·t … 5000·t + 4999 of the node array and the whole [1, 128] bias row,
  repeats the row down the 5000 rows, adds, takes the larger of the sum and zero, and writes the block back as rows
  5000·t … of the result.  Entry (r, j) of the result reads entry (r, j) of the node array and entry (0, j) of the row,
  so the block point t writes is the block of the whole-array function, and the ten blocks tile the result's rows.
-/
import proofs.«171593_j36550171689598_1_alg».proof.Proof.Gen.KernelIdeal.Frame
import proofs.«171593_j36550171689598_1_alg».proof.Proof.LibBiasRows
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Bs1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the block's entry plus the row's entry of that column, rectified. -/
theorem pay_eq (x0 : Vec Ideal S5000x128 .f32) (x1 : Vec Ideal S1x128 .f32) (j : S5000x128.Idx) :
    k1_pay1 (F := Ideal) x0 x1 j = Cert.LibBiasRows.reluRow (n := 5000) (d := 128) x0 x1 j := by
  unfold k1_pay1
  simp only [shapeCast_self]
  show max (x0 j + broadcastTo S5000x128 x1 broadcasts_S1x128_S5000x128 j) _ = max (x0 j + x1 (ix2 ⟨0, Nat.one_pos⟩ (j 1))) _
  rw [Cert.LibBiasRows.row_broadcast (n := 5000) (d := 128) x1 broadcasts_S1x128_S5000x128 j]
  rfl

/-- The printed index maps over the ten grid points: the row windows sit at block t, the bias row at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The node array's block at point t is its rows 5000·t …. -/
theorem blk_rows (c : Dev nD) (t : Fin cfg1.N) (y : S5000x128.Idx) (i : S50000x128.Idx)
    (h0 : (i 0).val = 5000 * t.val + (y 0).val) (h1 : (i 1).val = (y 1).val) :
    (iblk1 V c 0 t : Vec Ideal S5000x128 .f32) y = (V c (Pipeline.arrRef spec1 0) : S50000x128.Idx → EReal) i := by
  obtain ⟨e0, e1, -⟩ := idx_facts t
  unfold iblk1
  rw [View.read_apply]
  show (V c (Pipeline.arrRef spec1 0) : S50000x128.Idx → EReal) _ = (V c (Pipeline.arrRef spec1 0) : S50000x128.Idx → EReal) i
  refine congrArg (V c (Pipeline.arrRef spec1 0) : S50000x128.Idx → EReal) (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The bias row's block at every point is the whole row. -/
theorem blk_bias (c : Dev nD) (t : Fin cfg1.N) (y : S1x128.Idx) :
    (iblk1 V c 1 t : Vec Ideal S1x128 .f32) y = (V c (Pipeline.arrRef spec1 1) : S1x128.Idx → EReal) y := by
  obtain ⟨-, -, e2, e3, -⟩ := idx_facts t
  unfold iblk1
  rw [View.read_apply]
  show (V c (Pipeline.arrRef spec1 1) : S1x128.Idx → EReal) _ = (V c (Pipeline.arrRef spec1 1) : S1x128.Idx → EReal) y
  refine congrArg (V c (Pipeline.arrRef spec1 1) : S1x128.Idx → EReal) (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- What point t writes back is block t of the whole-array function. -/
theorem flushed_eq (c : Dev nD) (t : Fin cfg1.N) :
    (dat1 V c).flushed 2 t = ((cfg1.win 2).blk t).view.read (Elt Ideal)
      (Cert.LibBiasRows.reluRow (n := 50000) (d := 128) (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨-, -, -, -, e4, e5⟩ := idx_facts t
  funext j
  refine (pay_eq (iblk1 V c 0 t) (iblk1 V c 1 t) j).trans ?_
  refine Cert.LibBiasRows.reluRow_congr _ _ _ _ j (((cfg1.win 2).blk t).view.emb j) ?_ ?_
  · refine blk_rows V c t _ _ ?_ ?_
    · show win1_2.index t (0 : Fin 2) * 5000 + 1 * (j 0).val = 5000 * t.val + (j 0).val; omega
    · show win1_2.index t (1 : Fin 2) * 128 + 1 * (j 1).val = (j 1).val; omega
  · refine (blk_bias V c t _).trans (congrArg _ (funext fun a => Fin.ext ?_))
    match a with
    | ⟨0, _⟩ => rfl
    | ⟨1, _⟩ => show (j 1).val = win1_2.index t (1 : Fin 2) * 128 + 1 * (j 1).val; omega

/-- An index of the result is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Row r of the result lies in the block of point r / 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the region: the bias row added to every row of the node array, rectified, both as the region found them. -/
theorem final (c : Dev nD) :
    (dat1 V c).arrAt 2 cfg1.N
      = Cert.LibBiasRows.reluRow (n := 50000) (d := 128) (V c (Pipeline.arrRef spec1 0)) (V c (Pipeline.arrRef spec1 1)) :=
  (dat1 V c).arrAt_eq_of_cover 2 _ (fun t _ => flushed_eq V c t) (fun i => cover i)

end Cert.KernelIdeal.Bs1

end
-- ==== Proof.Mm2.lean ====
/-
    Kernel region 2: the dense map of one layer, a [50000, 128] node array times a [128, 128] weight matrix.

  The grid has ten points; point t loads rows 5000·t … 5000·t + 4999 of the node array and the whole weight matrix,
  multiplies them on the matrix unit into a zero accumulator, and writes the [5000, 128] product back as rows
  5000·t … of the result.  On the extended reals the matrix unit's product is the plain row-by-column sum
  ∑ k, a (r, k) · w (k, j) (a change of float format is the identity there), and entry (r, j) of it reads row r only:
  so the block point t writes is the block of the whole product, and the ten blocks tile the result's rows.
  Hence the result array ends as the row-by-column product of the node array and the weights as the region found them.
-/
import proofs.«171593_j36550171689598_1_alg».proof.Proof.Gen.KernelIdeal.Frame
import proofs.«171593_j36550171689598_1_alg».proof.Proof.LibDense
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Mm2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the row of the loaded block against the column of the loaded weights. -/
theorem pay_eq (x0 : Vec Ideal S5000x128 .f32) (x1 : Vec Ideal S128x128 .f32) (j : S5000x128.Idx) :
    k2_pay1 (F := Ideal) x0 x1 j = Cert.LibDense.prod (n := 5000) (K := 128) (d := 128) x0 x1 j := by
  unfold k2_pay1
  simp only [shapeCast_self]
  refine (Cert.LibDense.matmul_plain (M := 5000) (K := 128) (N := 128) (φ₁ := .bf16) (φ₂ := .bf16) (truncf .bf16 x0 bitsLt_bf16_f32) (truncf .bf16 x1 bitsLt_bf16_f32) j).trans ?_
  rfl

/-- An entry of the product reads one row of the left operand and one column of the right. -/
theorem prod_congr {n n' K d : ℕ} (a : (⟨2, ![n, K]⟩ : Shape).Idx → EReal) (a' : (⟨2, ![n', K]⟩ : Shape).Idx → EReal)
    (w w' : (⟨2, ![K, d]⟩ : Shape).Idx → EReal) (i : (⟨2, ![n, d]⟩ : Shape).Idx) (i' : (⟨2, ![n', d]⟩ : Shape).Idx)
    (ha : ∀ k : Fin K, a (ix2 (i 0) k) = a' (ix2 (i' 0) k)) (hw : ∀ k : Fin K, w (ix2 k (i 1)) = w' (ix2 k (i' 1))) :
    Cert.LibDense.prod a w i = Cert.LibDense.prod a' w' i' := by
  unfold Cert.LibDense.prod
  exact Finset.sum_congr rfl fun k _ => congrArg₂ (· * ·) (ha k) (hw k)

/-- The printed index maps over the ten grid points: the row windows sit at block t, the weights at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The node array's block at point t is its rows 5000·t …. -/
theorem blk_rows (c : Dev nD) (t : Fin cfg2.N) (y : S5000x128.Idx) (i : S50000x128.Idx)
    (h0 : (i 0).val = 5000 * t.val + (y 0).val) (h1 : (i 1).val = (y 1).val) :
    (iblk2 V c 0 t : Vec Ideal S5000x128 .f32) y = (V c (Pipeline.arrRef spec2 0) : S50000x128.Idx → EReal) i := by
  obtain ⟨e0, e1, -⟩ := idx_facts t
  unfold iblk2
  rw [View.read_apply]
  show (V c (Pipeline.arrRef spec2 0) : S50000x128.Idx → EReal) _ = (V c (Pipeline.arrRef spec2 0) : S50000x128.Idx → EReal) i
  refine congrArg (V c (Pipeline.arrRef spec2 0) : S50000x128.Idx → EReal) (funext fun a => Fin.ext ?_)
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- The weights' block at every point is the whole matrix. -/
theorem blk_weights (c : Dev nD) (t : Fin cfg2.N) (y : S128x128.Idx) :
    (iblk2 V c 1 t : Vec Ideal S128x128 .f32) y = (V c (Pipeline.arrRef spec2 1) : S128x128.Idx → EReal) y := by
  obtain ⟨-, -, e2, e3, -⟩ := idx_facts t
  unfold iblk2
  rw [View.read_apply]
  show (V c (Pipeline.arrRef spec2 1) : S128x128.Idx → EReal) _ = (V c (Pipeline.arrRef spec2 1) : S128x128.Idx → EReal) y
  refine congrArg (V c (Pipeline.arrRef spec2 1) : S128x128.Idx → EReal) (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- What point t writes back is block t of the whole product. -/
theorem flushed_eq (c : Dev nD) (t : Fin cfg2.N) :
    (dat2 V c).flushed 2 t = ((cfg2.win 2).blk t).view.read (Elt Ideal)
      (Cert.LibDense.prod (n := 50000) (K := 128) (d := 128) (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e4, e5⟩ := idx_facts t
  funext j
  refine (pay_eq (iblk2 V c 0 t) (iblk2 V c 1 t) j).trans ?_
  refine prod_congr _ _ _ _ j (((cfg2.win 2).blk t).view.emb j) (fun k => ?_) (fun k => ?_)
  · refine blk_rows V c t _ _ ?_ ?_
    · show win2_2.index t (0 : Fin 2) * 5000 + 1 * (j 0).val = 5000 * t.val + (j 0).val; omega
    · rfl
  · refine (blk_weights V c t _).trans (congrArg _ (funext fun a => Fin.ext ?_))
    match a with
    | ⟨0, _⟩ => rfl
    | ⟨1, _⟩ => show (j 1).val = win2_2.index t (1 : Fin 2) * 128 + 1 * (j 1).val; omega

/-- An index of the result is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Row r of the result lies in the block of point r / 5000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The result array after the region: the product of the node array and the weights as the region found them. -/
theorem final (c : Dev nD) :
    (dat2 V c).arrAt 2 cfg2.N
      = Cert.LibDense.prod (n := 50000) (K := 128) (d := 128) (V c (Pipeline.arrRef spec2 0)) (V c (Pipeline.arrRef spec2 1)) :=
  (dat2 V c).arrAt_eq_of_cover 2 _ (fun t _ => flushed_eq V c t) (fun i => cover i)

end Cert.KernelIdeal.Mm2

end
-- ==== Proof.Bs3.lean ====
/-
  Kernel region 3: a bias row added to every row of a [50000, 128] node array, then the rectifier.

  The grid has ten points; point t loads rows 5000·t … 5000·t + 4999 of the node array and the whole [1, 128] bias row,
  repeats the row down the 5000 rows, adds, takes the larger of the sum and zero, and writes the block back as rows
  5000·t … of the result.  Entry (r, j) of the result reads entry (r, j) of the node array and entry (0, j) of the row,
  so the block point t writes is the block of the whole-array function, and the ten blocks tile the result's rows.
-/
import proofs.«171593_j36550171689598_1_alg».proof.Proof.Gen.KernelIdeal.Frame
import proofs.«171593_j36550171689598_1_alg».proof.Proof.LibBiasRows
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Bs3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the block's entry plus the row's entry of that column, rectified. -/
theorem pay_eq (x0 : Vec Ideal S5000x128 .f32) (x1 : Vec Ideal S1x128 .f32) (j : S5000x128.Idx) :
    k3_pay1 (F := Ideal) x0 x1 j = Cert.LibBiasRows.reluRow (n := 5000) (d := 128) x0 x1 j := by
  unfold k3_pay1
  simp only [shapeCast_self]
  show max (x0 j + broadcastTo S5000x128 x1 broadcasts_S1x128_S5000x128 j) _ = max (x0 j + x1 (ix2 ⟨0, Nat.one_pos⟩ (j 1))) _
  rw [Cert.LibBiasRows.row_broadcast (n := 5000) (d := 128) x1 broadcasts_S1x128_S5000x128 j]
  rfl

/-- The printed index maps over the ten grid points: the row windows sit at block t, the bias row at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The node array's block at point t is its rows 5000·t …. -/
theorem blk_rows (c : Dev nD) (t : Fin cfg3.N) (y : S5000x128.Idx) (i : S50000x128.Idx)
    (h0 : (i 0).val = 5000 * t.val + (y 0).val) (h1 : (i 1).val = (y 1).val) :
    (iblk3 V c 0 t : Vec Ideal S5000x128 .f32) y = (V c (Pipeline.arrRef spec3 0) : S50000x128.Idx → EReal) i := by
  obtain ⟨e0, e1, -⟩ := idx_facts t
  unfold iblk3
  rw [View.read_apply]
  show (V c (Pipeline.arrRef spec3 0) : S50000x128.Idx → EReal) _ = (V c (Pipeline.arrRef spec3 0) : S50000x128.Idx → EReal) i
  refine congrArg (V c (Pipeline.arrRef spec3 0) : S50000x128.Idx → EReal) (funext fun a => Fin.ext ?_)
  match a with
  | ⟨0, _⟩ => show win3_0.index t (0 : Fin 2) * 5000 + 1 * (y 0).val = (i 0).val; omega
  | ⟨1, _⟩ => show win3_0.index t (1 : Fin 2) * 128 + 1 * (y 1).val = (i 1).val; omega

/-- The bias row's block at every point is the whole row. -/
theorem blk_bias (c : Dev nD) (t : Fin cfg3.N) (y : S1x128.Idx) :
    (iblk3 V c 1 t : Vec Ideal S1x128 .f32) y = (V c (Pipeline.arrRef spec3 1) : S1x128.Idx → EReal) y := by
  obtain ⟨-, -, e2, e3, -⟩ := idx_facts t
  unfold iblk3
  rw [View.read_apply]
  show (V c (Pipeline.arrRef spec3 1) : S1x128.Idx → EReal) _ = (V c (Pipeline.arrRef spec3 1) : S1x128.Idx → EReal) y
  refine congrArg (V c (Pipeline.arrRef spec3 1) : S1x128.Idx → EReal) (funext fun a => Fin.ext ?_)
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- What point t writes back is block t of the whole-array function. -/
theorem flushed_eq (c : Dev nD) (t : Fin cfg3.N) :
    (dat3 V c).flushed 2 t = ((cfg3.win 2).blk t).view.read (Elt Ideal)
      (Cert.LibBiasRows.reluRow (n := 50000) (d := 128) (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨-, -, -, -, e4, e5⟩ := idx_facts t
  funext j
  refine (pay_eq (iblk3 V c 0 t) (iblk3 V c 1 t) j).trans ?_
  refine Cert.LibBiasRows.reluRow_congr _ _ _ _ j (((cfg3.win 2).blk t).view.emb j) ?_ ?_
  · refine blk_rows V c t _ _ ?_ ?_
    · show win3_2.index t (0 : Fin 2) * 5000 + 1 * (j 0).val = 5000 * t.val + (j 0).val; omega
    · show win3_2.index t (1 : Fin 2) * 128 + 1 * (j 1).val = (j 1).val; omega
  · refine (blk_bias V c t _).trans (congrArg _ (funext fun a => Fin.ext ?_))
    match a with
    | ⟨0, _⟩ => rfl
    | ⟨1, _⟩ => show (j 1).val = win3_2.index t (1 : Fin 2) * 128 + 1 * (j 1).val; omega

/-- An index of the result is in point t's block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Row r of the result lies in the block of point r / 5000. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, e4, e5⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The result array after the region: the bias row added to every row of the node array, rectified, both as the region found them. -/
theorem final (c : Dev nD) :
    (dat3 V c).arrAt 2 cfg3.N
      = Cert.LibBiasRows.reluRow (n := 50000) (d := 128) (V c (Pipeline.arrRef spec3 0)) (V c (Pipeline.arrRef spec3 1)) :=
  (dat3 V c).arrAt_eq_of_cover 2 _ (fun t _ => flushed_eq V c t) (fun i => cover i)

end Cert.KernelIdeal.Bs3

end
-- ==== Proof.Mm4.lean ====
/-
    Kernel region 4: the dense map of one layer, a [50000, 128] node array times a [128, 64] weight matrix.

  The grid has ten points; point t loads rows 5000·t … 5000·t + 4999 of the node array and the whole weight matrix,
  multiplies them on the matrix unit into a zero accumulator, and writes the [5000, 64] product back as rows
  5000·t … of the result.  On the extended reals the matrix unit's product is the plain row-by-column sum
  ∑ k, a (r, k) · w (k, j) (a change of float format is the identity there), and entry (r, j) of it reads row r only:
  so the block point t writes is the block of the whole product, and the ten blocks tile the result's rows.
  Hence the result array ends as the row-by-column product of the node array and the weights as the region found them.
-/
import proofs.«171593_j36550171689598_1_alg».proof.Proof.Gen.KernelIdeal.Frame
import proofs.«171593_j36550171689598_1_alg».proof.Proof.LibDense
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Mm4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the row of the loaded block against the column of the loaded weights. -/
theorem pay_eq (x0 : Vec Ideal S5000x128 .f32) (x1 : Vec Ideal S128x64 .f32) (j : S5000x64.Idx) :
    k4_pay1 (F := Ideal) x0 x1 j = Cert.LibDense.prod (n := 5000) (K := 128) (d := 64) x0 x1 j := by
  unfold k4_pay1
  simp only [shapeCast_self]
  refine (Cert.LibDense.matmul_plain (M := 5000) (K := 128) (N := 64) (φ₁ := .bf16) (φ₂ := .bf16) (truncf .bf16 x0 bitsLt_bf16_f32) (truncf .bf16 x1 bitsLt_bf16_f32) j).trans ?_
  rfl

/-- An entry of the product reads one row of the left operand and one column of the right. -/
theorem prod_congr {n n' K d : ℕ} (a : (⟨2, ![n, K]⟩ : Shape).Idx → EReal) (a' : (⟨2, ![n', K]⟩ : Shape).Idx → EReal)
    (w w' : (⟨2, ![K, d]⟩ : Shape).Idx → EReal) (i : (⟨2, ![n, d]⟩ : Shape).Idx) (i' : (⟨2, ![n', d]⟩ : Shape).Idx)
    (ha : ∀ k : Fin K, a (ix2 (i 0) k) = a' (ix2 (i' 0) k)) (hw : ∀ k : Fin K, w (ix2 k (i 1)) = w' (ix2 k (i' 1))) :
    Cert.LibDense.prod a w i = Cert.LibDense.prod a' w' i' := by
  unfold Cert.LibDense.prod
  exact Finset.sum_congr rfl fun k _ => congrArg₂ (· * ·) (ha k) (hw k)

/-- The printed index maps over the ten grid points: the row windows sit at block t, the weights at block 0. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The node array's block at point t is its rows 5000·t …. -/
theorem blk_rows (c : Dev nD) (t : Fin cfg4.N) (y : S5000x128.Idx) (i : S50000x128.Idx)
    (h0 : (i 0).val = 5000 * t.val + (y 0).val) (h1 : (i 1).val = (y 1).val) :
    (iblk4 V c 0 t : Vec Ideal S5000x128 .f32) y = (V c (Pipeline.arrRef spec4 0) : S50000x128.Idx → EReal) i := by
  obtain ⟨e0, e1, -⟩ := idx_facts t
  unfold iblk4
  rw [View.read_apply]
  show (V c (Pipeline.arrRef spec4 0) : S50000x128.Idx → EReal) _ = (V c (Pipeline.arrRef spec4 0) : S50000x128.Idx → EReal) i
  refine congrArg (V c (Pipeline.arrRef spec4 0) : S50000x128.Idx → EReal) (funext fun a => Fin.ext ?_)
  match a with
  | ⟨0, _⟩ => show win4_0.index t (0 : Fin 2) * 5000 + 1 * (y 0).val = (i 0).val; omega
  | ⟨1, _⟩ => show win4_0.index t (1 : Fin 2) * 128 + 1 * (y 1).val = (i 1).val; omega

/-- The weights' block at every point is the whole matrix. -/
theorem blk_weights (c : Dev nD) (t : Fin cfg4.N) (y : S128x64.Idx) :
    (iblk4 V c 1 t : Vec Ideal S128x64 .f32) y = (V c (Pipeline.arrRef spec4 1) : S128x64.Idx → EReal) y := by
  obtain ⟨-, -, e2, e3, -⟩ := idx_facts t
  unfold iblk4
  rw [View.read_apply]
  show (V c (Pipeline.arrRef spec4 1) : S128x64.Idx → EReal) _ = (V c (Pipeline.arrRef spec4 1) : S128x64.Idx → EReal) y
  refine congrArg (V c (Pipeline.arrRef spec4 1) : S128x64.Idx → EReal) (funext fun a => Fin.ext ?_)
  match a with
  | ⟨0, _⟩ => show win4_1.index t (0 : Fin 2) * 128 + 1 * (y 0).val = (y 0).val; omega
  | ⟨1, _⟩ => show win4_1.index t (1 : Fin 2) * 64 + 1 * (y 1).val = (y 1).val; omega

/-- What point t writes back is block t of the whole product. -/
theorem flushed_eq (c : Dev nD) (t : Fin cfg4.N) :
    (dat4 V c).flushed 2 t = ((cfg4.win 2).blk t).view.read (Elt Ideal)
      (Cert.LibDense.prod (n := 50000) (K := 128) (d := 64) (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x64) hz]
  obtain ⟨-, -, -, -, e4, e5⟩ := idx_facts t
  funext j
  refine (pay_eq (iblk4 V c 0 t) (iblk4 V c 1 t) j).trans ?_
  refine prod_congr _ _ _ _ j (((cfg4.win 2).blk t).view.emb j) (fun k => ?_) (fun k => ?_)
  · refine blk_rows V c t _ _ ?_ ?_
    · show win4_2.index t (0 : Fin 2) * 5000 + 1 * (j 0).val = 5000 * t.val + (j 0).val; omega
    · rfl
  · refine (blk_weights V c t _).trans (congrArg _ (funext fun a => Fin.ext ?_))
    match a with
    | ⟨0, _⟩ => rfl
    | ⟨1, _⟩ => show (j 1).val = win4_2.index t (1 : Fin 2) * 64 + 1 * (j 1).val; omega

/-- An index of the result is in point t's block iff each coordinate is in the block's range on its axis. -/
theorem mem_blk (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v62).slice (win4_2.rect t)).set ↔ _
  rw [View.set_slice_whole, Rect.mem_set_unit]
  exact Iff.rfl

/-- Row r of the result lies in the block of point r / 5000. -/
theorem cover (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, e4, e5⟩ := idx_facts t
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- The result array after the region: the product of the node array and the weights as the region found them. -/
theorem final (c : Dev nD) :
    (dat4 V c).arrAt 2 cfg4.N
      = Cert.LibDense.prod (n := 50000) (K := 128) (d := 64) (V c (Pipeline.arrRef spec4 0)) (V c (Pipeline.arrRef spec4 1)) :=
  (dat4 V c).arrAt_eq_of_cover 2 _ (fun t _ => flushed_eq V c t) (fun i => cover i)

end Cert.KernelIdeal.Mm4

end
-- ==== Proof.Bs5.lean ====
/-
  Kernel region 5: a bias row added to every row of a [50000, 64] node array.

  The grid has ten points; point t loads rows 5000·t … 5000·t + 4999 of the node array and the whole [1, 64] bias row,
  repeats the row down the 5000 rows, adds, and writes the block back as rows
  5000·t … of the result.  Entry (r, j) of the result reads entry (r, j) of the node array and entry (0, j) of the row,
  so the block point t writes is the block of the whole-array function, and the ten blocks tile the result's rows.
-/
import proofs.«171593_j36550171689598_1_alg».proof.Proof.Gen.KernelIdeal.Frame
import proofs.«171593_j36550171689598_1_alg».proof.Proof.LibBiasRows
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Bs5

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the block's entry plus the row's entry of that column. -/
theorem pay_eq (x0 : Vec Ideal S5000x64 .f32) (x1 : Vec Ideal S1x64 .f32) (j : S5000x64.Idx) :
    k5_pay1 (F := Ideal) x0 x1 j = Cert.LibBiasRows.addRow (n := 5000) (d := 64) x0 x1 j := by
  unfold k5_pay1
  simp only [shapeCast_self]
  show x0 j + broadcastTo S5000x64 x1 broadcasts_S1x64_S5000x64 j = x0 j + x1 (ix2 ⟨0, Nat.one_pos⟩ (j 1))
  rw [Cert.LibBiasRows.row_broadcast (n := 5000) (d := 64) x1 broadcasts_S1x64_S5000x64 j]

/-- The printed index maps over the ten grid points: the row windows sit at block t, the bias row at block 0. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The node array's block at point t is its rows 5000·t …. -/
theorem blk_rows (c : Dev nD) (t : Fin cfg5.N) (y : S5000x64.Idx) (i : S50000x64.Idx)
    (h0 : (i 0).val = 5000 * t.val + (y 0).val) (h1 : (i 1).val = (y 1).val) :
    (iblk5 V c 0 t : Vec Ideal S5000x64 .f32) y = (V c (Pipeline.arrRef spec5 0) : S50000x64.Idx → EReal) i := by
  obtain ⟨e0, e1, -⟩ := idx_facts t
  unfold iblk5
  rw [View.read_apply]
  show (V c (Pipeline.arrRef spec5 0) : S50000x64.Idx → EReal) _ = (V c (Pipeline.arrRef spec5 0) : S50000x64.Idx → EReal) i
  refine congrArg (V c (Pipeline.arrRef spec5 0) : S50000x64.Idx → EReal) (funext fun a => Fin.ext ?_)
  match a with
  | ⟨0, _⟩ => show win5_0.index t (0 : Fin 2) * 5000 + 1 * (y 0).val = (i 0).val; omega
  | ⟨1, _⟩ => show win5_0.index t (1 : Fin 2) * 64 + 1 * (y 1).val = (i 1).val; omega

/-- The bias row's block at every point is the whole row. -/
theorem blk_bias (c : Dev nD) (t : Fin cfg5.N) (y : S1x64.Idx) :
    (iblk5 V c 1 t : Vec Ideal S1x64 .f32) y = (V c (Pipeline.arrRef spec5 1) : S1x64.Idx → EReal) y := by
  obtain ⟨-, -, e2, e3, -⟩ := idx_facts t
  unfold iblk5
  rw [View.read_apply]
  show (V c (Pipeline.arrRef spec5 1) : S1x64.Idx → EReal) _ = (V c (Pipeline.arrRef spec5 1) : S1x64.Idx → EReal) y
  refine congrArg (V c (Pipeline.arrRef spec5 1) : S1x64.Idx → EReal) (funext fun a => Fin.ext ?_)
  match a with
  | ⟨0, _⟩ => show win5_1.index t (0 : Fin 2) * 1 + 1 * (y 0).val = (y 0).val; omega
  | ⟨1, _⟩ => show win5_1.index t (1 : Fin 2) * 64 + 1 * (y 1).val = (y 1).val; omega

/-- What point t writes back is block t of the whole-array function. -/
theorem flushed_eq (c : Dev nD) (t : Fin cfg5.N) :
    (dat5 V c).flushed 2 t = ((cfg5.win 2).blk t).view.read (Elt Ideal)
      (Cert.LibBiasRows.addRow (n := 50000) (d := 64) (V c (Pipeline.arrRef spec5 0)) (V c (Pipeline.arrRef spec5 1))) := by
  show (cfg5.win 2).cut (grid5.coords t) ((dat5 V c).after 2 t) = _
  rw [after5_2]
  unfold out5_2
  rw [View.canon_unit_zero hz]
  simp only [View.ld_unit_zero (S := S5000x64) hz, View.ld_unit_zero (S := S1x64) hz]
  obtain ⟨-, -, -, -, e4, e5⟩ := idx_facts t
  funext j
  refine (pay_eq (iblk5 V c 0 t) (iblk5 V c 1 t) j).trans ?_
  refine Cert.LibBiasRows.addRow_congr _ _ _ _ j (((cfg5.win 2).blk t).view.emb j) ?_ ?_
  · refine blk_rows V c t _ _ ?_ ?_
    · show win5_2.index t (0 : Fin 2) * 5000 + 1 * (j 0).val = 5000 * t.val + (j 0).val; omega
    · show win5_2.index t (1 : Fin 2) * 64 + 1 * (j 1).val = (j 1).val; omega
  · refine (blk_bias V c t _).trans (congrArg _ (funext fun a => Fin.ext ?_))
    match a with
    | ⟨0, _⟩ => rfl
    | ⟨1, _⟩ => show (j 1).val = win5_2.index t (1 : Fin 2) * 64 + 1 * (j 1).val; omega

/-- An index of the result is in point t's block iff each coordinate is in the block's range on its axis. -/
theorem mem_blk (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v77).slice (win5_2.rect t)).set ↔ _
  rw [View.set_slice_whole, Rect.mem_set_unit]
  exact Iff.rfl

/-- Row r of the result lies in the block of point r / 5000. -/
theorem cover (i : S50000x64.Idx) : ∃ t : Fin cfg5.N, (cfg5.win 2).flush t = true ∧ i ∈ ((cfg5.win 2).blk t).view.set := by
  have hi0 : (i 0).val < 50000 := (i 0).isLt
  have hi1 : (i 1).val < 64 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, e4, e5⟩ := idx_facts t
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- The result array after the region: the bias row added to every row of the node array, both as the region found them. -/
theorem final (c : Dev nD) :
    (dat5 V c).arrAt 2 cfg5.N
      = Cert.LibBiasRows.addRow (n := 50000) (d := 64) (V c (Pipeline.arrRef spec5 0)) (V c (Pipeline.arrRef spec5 1)) :=
  (dat5 V c).arrAt_eq_of_cover 2 _ (fun t _ => flushed_eq V c t) (fun i => cover i)

end Cert.KernelIdeal.Bs5

end
-- ==== Proof.Fold.lean ====
/-
  The kernel's result, folded through @main's twelve segments.

  The contents at each boundary are named `W0` … `W12`.  Three host stretches build the edge ends and edge weights; these,
  and the five later arguments, are written nowhere else, so every later boundary holds them unchanged (`Carried`).
  Then, layer by layer: a dense region leaves the row-by-column product of the node array and the layer's weights; a host
  stretch leaves its aggregation over the edges and the bias as a row; an epilogue region leaves the bias added to every
  row, rectified in the first two layers.  Composed, the result buffer ends at the network of the description over the
  kernel's layer parts.
-/
import proofs.«171593_j36550171689598_1_alg».proof.Proof.Gen.KernelIdeal.Frame
import proofs.«171593_j36550171689598_1_alg».proof.Proof.Spec
import proofs.«171593_j36550171689598_1_alg».proof.Proof.Parts
import proofs.«171593_j36550171689598_1_alg».proof.Proof.HostK
import proofs.«171593_j36550171689598_1_alg».proof.Proof.Mm0
import proofs.«171593_j36550171689598_1_alg».proof.Proof.Bs1
import proofs.«171593_j36550171689598_1_alg».proof.Proof.Mm2
import proofs.«171593_j36550171689598_1_alg».proof.Proof.Bs3
import proofs.«171593_j36550171689598_1_alg».proof.Proof.Mm4
import proofs.«171593_j36550171689598_1_alg».proof.Proof.Bs5

set_option maxRecDepth 16384

noncomputable section

namespace Cert.KernelIdeal.Fold

open Cert.KernelIdeal Cert.KernelIdeal.Gen Cert.KernelIdeal.HostK
open Idealize.ShloMosaic Idealize.ShloMosaic.TcCoe Idealize.SL.Sem

variable (m : (ℓ : Loc nD τ sig) → Buf (Elt Ideal) ℓ) (ρ : Dev nD → PrngReg) (c : Dev nD)

theorem congr4 {α β γ δ ε : Sort _} (f : α → β → γ → δ → ε) {a a' : α} {b b' : β} {x x' : γ} {d d' : δ}
    (ha : a = a') (hb : b = b') (hx : x = x') (hd : d = d') : f a b x d = f a' b' x' d' := by
  subst ha hb hx hd; rfl

/-! ## The start: the edge ends, the edge weights, the arguments -/

theorem v3_at3 : W3 m ρ c (Proc.devRef .tc main_v3) = Cert.Gcn.ends0 (m ((c : Thread nD τ).loc main_arg1)) := pre_v3 (W0 m ρ c)
theorem v6_at3 : W3 m ρ c (Proc.devRef .tc main_v6) = Cert.Gcn.ends1 (m ((c : Thread nD τ).loc main_arg1)) := pre_v6 (W0 m ρ c)
theorem v29_at3 : W3 m ρ c (Proc.devRef .tc main_v29) = Cert.Gcn.norm (m ((c : Thread nD τ).loc main_arg1)) := pre_v29 (W0 m ρ c)
theorem a0_at3 : W3 m ρ c (Proc.devRef .tc main_arg0) = (m ((c : Thread nD τ).loc main_arg0)) := pre_arg0 (W0 m ρ c)
theorem a2_at3 : W3 m ρ c (Proc.devRef .tc main_arg2) = (m ((c : Thread nD τ).loc main_arg2)) := pre_arg2 (W0 m ρ c)
theorem a3_at3 : W3 m ρ c (Proc.devRef .tc main_arg3) = (m ((c : Thread nD τ).loc main_arg3)) := pre_arg3 (W0 m ρ c)
theorem a4_at3 : W3 m ρ c (Proc.devRef .tc main_arg4) = (m ((c : Thread nD τ).loc main_arg4)) := pre_arg4 (W0 m ρ c)
theorem a5_at3 : W3 m ρ c (Proc.devRef .tc main_arg5) = (m ((c : Thread nD τ).loc main_arg5)) := pre_arg5 (W0 m ρ c)
theorem a6_at3 : W3 m ρ c (Proc.devRef .tc main_arg6) = (m ((c : Thread nD τ).loc main_arg6)) := pre_arg6 (W0 m ρ c)
theorem a7_at3 : W3 m ρ c (Proc.devRef .tc main_arg7) = (m ((c : Thread nD τ).loc main_arg7)) := pre_arg7 (W0 m ρ c)

/-! ## What every later boundary still holds -/

theorem car4 : Carried (W3 m ρ c) (W4 m ρ c) :=
  ⟨W4_of_ne m ρ c main_v3 (by decide),
    W4_of_ne m ρ c main_v6 (by decide),
    W4_of_ne m ρ c main_v29 (by decide),
    W4_of_ne m ρ c main_arg3 (by decide),
    W4_of_ne m ρ c main_arg4 (by decide),
    W4_of_ne m ρ c main_arg5 (by decide),
    W4_of_ne m ρ c main_arg6 (by decide),
    W4_of_ne m ρ c main_arg7 (by decide)⟩
theorem car5 : Carried (W4 m ρ c) (W5 m ρ c) := carried1 (W4 m ρ c)
theorem car6 : Carried (W5 m ρ c) (W6 m ρ c) :=
  ⟨W6_of_ne m ρ c main_v3 (by decide),
    W6_of_ne m ρ c main_v6 (by decide),
    W6_of_ne m ρ c main_v29 (by decide),
    W6_of_ne m ρ c main_arg3 (by decide),
    W6_of_ne m ρ c main_arg4 (by decide),
    W6_of_ne m ρ c main_arg5 (by decide),
    W6_of_ne m ρ c main_arg6 (by decide),
    W6_of_ne m ρ c main_arg7 (by decide)⟩
theorem car7 : Carried (W6 m ρ c) (W7 m ρ c) :=
  ⟨W7_of_ne m ρ c main_v3 (by decide),
    W7_of_ne m ρ c main_v6 (by decide),
    W7_of_ne m ρ c main_v29 (by decide),
    W7_of_ne m ρ c main_arg3 (by decide),
    (W7_arr m ρ c 1).trans (((dat2 (V6 m ρ) c).arrAt_in 1 rfl _).trans (A_eq2 (V6 m ρ) c 1)),
    W7_of_ne m ρ c main_arg5 (by decide),
    W7_of_ne m ρ c main_arg6 (by decide),
    W7_of_ne m ρ c main_arg7 (by decide)⟩
theorem car8 : Carried (W7 m ρ c) (W8 m ρ c) := carried3 (W7 m ρ c)
theorem car9 : Carried (W8 m ρ c) (W9 m ρ c) :=
  ⟨W9_of_ne m ρ c main_v3 (by decide),
    W9_of_ne m ρ c main_v6 (by decide),
    W9_of_ne m ρ c main_v29 (by decide),
    W9_of_ne m ρ c main_arg3 (by decide),
    W9_of_ne m ρ c main_arg4 (by decide),
    W9_of_ne m ρ c main_arg5 (by decide),
    W9_of_ne m ρ c main_arg6 (by decide),
    W9_of_ne m ρ c main_arg7 (by decide)⟩
theorem car10 : Carried (W9 m ρ c) (W10 m ρ c) :=
  ⟨W10_of_ne m ρ c main_v3 (by decide),
    W10_of_ne m ρ c main_v6 (by decide),
    W10_of_ne m ρ c main_v29 (by decide),
    W10_of_ne m ρ c main_arg3 (by decide),
    W10_of_ne m ρ c main_arg4 (by decide),
    W10_of_ne m ρ c main_arg5 (by decide),
    (W10_arr m ρ c 1).trans (((dat4 (V9 m ρ) c).arrAt_in 1 rfl _).trans (A_eq4 (V9 m ρ) c 1)),
    W10_of_ne m ρ c main_arg7 (by decide)⟩

theorem to4 : Carried (W3 m ρ c) (W4 m ρ c) := car4 m ρ c
theorem to6 : Carried (W3 m ρ c) (W6 m ρ c) := ((to4 m ρ c).trans (car5 m ρ c)).trans (car6 m ρ c)
theorem to7 : Carried (W3 m ρ c) (W7 m ρ c) := (to6 m ρ c).trans (car7 m ρ c)
theorem to9 : Carried (W3 m ρ c) (W9 m ρ c) := ((to7 m ρ c).trans (car8 m ρ c)).trans (car9 m ρ c)
theorem to10 : Carried (W3 m ρ c) (W10 m ρ c) := (to9 m ρ c).trans (car10 m ρ c)

/-! ## Layer 1 -/

/-- The first dense map. -/
abbrev h1 : FVec Ideal Cert.ReferenceIdeal.S50000x128 .f32 := Cert.Gcn.kerD128 (m ((c : Thread nD τ).loc main_arg0)) (m ((c : Thread nD τ).loc main_arg2))
/-- Its aggregation over the edges. -/
abbrev g1 : FVec Ideal Cert.ReferenceIdeal.S50000x128 .f32 :=
  Cert.Gcn.agg128 (Cert.Gcn.ends0 (m ((c : Thread nD τ).loc main_arg1))) (Cert.Gcn.ends1 (m ((c : Thread nD τ).loc main_arg1))) (Cert.Gcn.norm (m ((c : Thread nD τ).loc main_arg1))) (h1 m c)
/-- The first layer's output. -/
abbrev a1 : FVec Ideal Cert.ReferenceIdeal.S50000x128 .f32 := Cert.Gcn.kerAct128 (g1 m c) (m ((c : Thread nD τ).loc main_arg3))

theorem at4 : W4 m ρ c (Proc.devRef .tc main_v30) = h1 m c := by
  refine (W4_arr m ρ c 2).trans ((Cert.KernelIdeal.Mm0.final (V3 m ρ) c).trans ?_)
  exact congrArg₂ Cert.Gcn.kerD128 (a0_at3 m ρ c) (a2_at3 m ρ c)

theorem at5 : W5 m ρ c (Proc.devRef .tc main_v43) = g1 m c := by
  refine (h1_v43 (W4 m ρ c)).trans ?_
  exact congr4 Cert.Gcn.agg128 ((to4 m ρ c).v3.trans (v3_at3 m ρ c)) ((to4 m ρ c).v6.trans (v6_at3 m ρ c))
    ((to4 m ρ c).v29.trans (v29_at3 m ρ c)) (at4 m ρ c)

theorem at5b : W5 m ρ c (Proc.devRef .tc main_v44) = (shapeCast S1x128 (m ((c : Thread nD τ).loc main_arg3)) shapeCasts_S128_S1x128 : FVec Ideal S1x128 .f32) := by
  refine (h1_v44 (W4 m ρ c)).trans ?_
  exact congrArg (fun z => (shapeCast S1x128 z shapeCasts_S128_S1x128 : FVec Ideal S1x128 .f32)) ((to4 m ρ c).a3.trans (a3_at3 m ρ c))

theorem at6 : W6 m ρ c (Proc.devRef .tc main_v45) = a1 m c := by
  refine (W6_arr m ρ c 2).trans ((Cert.KernelIdeal.Bs1.final (V5 m ρ) c).trans ?_)
  exact congrArg₂ (Cert.LibBiasRows.reluRow (n := 50000) (d := 128)) (at5 m ρ c) (at5b m ρ c)

/-! ## Layer 2 -/

abbrev h2 : FVec Ideal Cert.ReferenceIdeal.S50000x128 .f32 := Cert.Gcn.kerD128 (a1 m c) (m ((c : Thread nD τ).loc main_arg4))
abbrev g2 : FVec Ideal Cert.ReferenceIdeal.S50000x128 .f32 :=
  Cert.Gcn.agg128 (Cert.Gcn.ends0 (m ((c : Thread nD τ).loc main_arg1))) (Cert.Gcn.ends1 (m ((c : Thread nD τ).loc main_arg1))) (Cert.Gcn.norm (m ((c : Thread nD τ).loc main_arg1))) (h2 m c)
abbrev a2 : FVec Ideal Cert.ReferenceIdeal.S50000x128 .f32 := Cert.Gcn.kerAct128 (g2 m c) (m ((c : Thread nD τ).loc main_arg5))

theorem at7 : W7 m ρ c (Proc.devRef .tc main_v46) = h2 m c := by
  refine (W7_arr m ρ c 2).trans ((Cert.KernelIdeal.Mm2.final (V6 m ρ) c).trans ?_)
  exact congrArg₂ Cert.Gcn.kerD128 (at6 m ρ c) ((to6 m ρ c).a4.trans (a4_at3 m ρ c))

theorem at8 : W8 m ρ c (Proc.devRef .tc main_v59) = g2 m c := by
  refine (h3_v59 (W7 m ρ c)).trans ?_
  exact congr4 Cert.Gcn.agg128 ((to7 m ρ c).v3.trans (v3_at3 m ρ c)) ((to7 m ρ c).v6.trans (v6_at3 m ρ c))
    ((to7 m ρ c).v29.trans (v29_at3 m ρ c)) (at7 m ρ c)

theorem at8b : W8 m ρ c (Proc.devRef .tc main_v60) = (shapeCast S1x128 (m ((c : Thread nD τ).loc main_arg5)) shapeCasts_S128_S1x128 : FVec Ideal S1x128 .f32) := by
  refine (h3_v60 (W7 m ρ c)).trans ?_
  exact congrArg (fun z => (shapeCast S1x128 z shapeCasts_S128_S1x128 : FVec Ideal S1x128 .f32)) ((to7 m ρ c).a5.trans (a5_at3 m ρ c))

theorem at9 : W9 m ρ c (Proc.devRef .tc main_v61) = a2 m c := by
  refine (W9_arr m ρ c 2).trans ((Cert.KernelIdeal.Bs3.final (V8 m ρ) c).trans ?_)
  exact congrArg₂ (Cert.LibBiasRows.reluRow (n := 50000) (d := 128)) (at8 m ρ c) (at8b m ρ c)

/-! ## Layer 3 -/

abbrev h3 : FVec Ideal Cert.ReferenceIdeal.S50000x64 .f32 := Cert.Gcn.kerD64 (a2 m c) (m ((c : Thread nD τ).loc main_arg6))
abbrev g3 : FVec Ideal Cert.ReferenceIdeal.S50000x64 .f32 :=
  Cert.Gcn.agg64 (Cert.Gcn.ends0 (m ((c : Thread nD τ).loc main_arg1))) (Cert.Gcn.ends1 (m ((c : Thread nD τ).loc main_arg1))) (Cert.Gcn.norm (m ((c : Thread nD τ).loc main_arg1))) (h3 m c)

theorem at10 : W10 m ρ c (Proc.devRef .tc main_v62) = h3 m c := by
  refine (W10_arr m ρ c 2).trans ((Cert.KernelIdeal.Mm4.final (V9 m ρ) c).trans ?_)
  exact congrArg₂ Cert.Gcn.kerD64 (at9 m ρ c) ((to9 m ρ c).a6.trans (a6_at3 m ρ c))

theorem at11 : W11 m ρ c (Proc.devRef .tc main_v75) = g3 m c := by
  refine (h5_v75 (W10 m ρ c)).trans ?_
  exact congr4 Cert.Gcn.agg64 ((to10 m ρ c).v3.trans (v3_at3 m ρ c)) ((to10 m ρ c).v6.trans (v6_at3 m ρ c))
    ((to10 m ρ c).v29.trans (v29_at3 m ρ c)) (at10 m ρ c)

theorem at11b : W11 m ρ c (Proc.devRef .tc main_v76) = (shapeCast S1x64 (m ((c : Thread nD τ).loc main_arg7)) shapeCasts_S64_S1x64 : FVec Ideal S1x64 .f32) := by
  refine (h5_v76 (W10 m ρ c)).trans ?_
  exact congrArg (fun z => (shapeCast S1x64 z shapeCasts_S64_S1x64 : FVec Ideal S1x64 .f32)) ((to10 m ρ c).a7.trans (a7_at3 m ρ c))

/-- THE RESULT: the network over the kernel's layer parts, of the arguments as launched. -/
theorem result : W12 m ρ c (Proc.devRef .tc main_v77)
    = Cert.Gcn.net Cert.Gcn.kerD128 Cert.Gcn.kerD64 Cert.Gcn.kerAct128 Cert.Gcn.kerOut64
        (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ((Cert.KernelIdeal.Bs5.final (V11 m ρ) c).trans ?_)
  exact congrArg₂ (Cert.LibBiasRows.addRow (n := 50000) (d := 64)) (at11 m ρ c) (at11b m ρ c)

end Cert.KernelIdeal.Fold

end
-- ==== Proof.RefValue.lean ====
/-
  The reference's result is the network over the host's layer parts.

  The reference's @main is a straight line of host operations; its result, composed back to the arguments, is the
  term the network's description unfolds to when the dense maps are jnp's matrix products and the bias and rectifier
  the host's broadcasts, addition and maximum: the same operations in the same order, the edge ends and edge weights
  recomputed where each layer reads them.
-/
import proofs.«171593_j36550171689598_1_alg».proof.Proof.RefRun
import proofs.«171593_j36550171689598_1_alg».proof.Proof.Spec

noncomputable section

namespace Cert.ReferenceIdeal.RefValue

open Cert.ReferenceIdeal Cert.ReferenceIdeal.Gen Idealize.ShloMosaic Idealize.ShloMosaic.TcCoe Idealize.SL.Sem

set_option maxRecDepth 65536 in
set_option maxHeartbeats 8000000 in
theorem res_eq (m : (ℓ : Loc nD τ sig) → Buf (Elt Ideal) ℓ) (c : Dev nD) :
    Cert.ReferenceIdeal.ValueP.res_main_v112 (F := Ideal) m c
      = Cert.Gcn.net Cert.Gcn.hostD128 Cert.Gcn.hostD64 Cert.Gcn.hostAct128 Cert.Gcn.hostOut64
          (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v112
  rfl

end Cert.ReferenceIdeal.RefValue

end
-- ==== Proof.lean ====
/-
  A three-layer graph-convolution encoder on 50000 nodes and 800000 edges: the Pallas program against its jnp reference,
  on the extended reals.

  Both programs build the same 850000 edge ends (the listed edges, then one self loop per node), the same node degrees
  and edge weights deg(s)^(-1/2) · deg(d)^(-1/2), and in every layer the same aggregation: rows of the dense result
  gathered at the source ends, scaled by the edge weights, summed into the target ends' rows.  They differ in two parts
  of a layer only.  The dense map h · W is, in the kernel, ten grid points each multiplying 5000 rows on the matrix unit
  from inputs rounded to bf16, and in the reference one matrix product; on the extended reals a change of float format
  is the identity and both are the row-by-column sum.  The bias (and, in the first two layers, the rectifier) is, in
  the kernel, ten grid points each adding a [1, d] row to 5000 rows, and in the reference two broadcasts, an addition
  and a maximum; entry by entry both are a (r, j) + b j, or the larger of that and zero.  So the two results are the
  same network over equal parts.  Nothing here moves a factor across a sum or cancels, so the inputs' finiteness is
  never used.

  The frames of the two kernel programs are the generated ones; the reference's frame is its run with the result
  dropped.  The ideal pass rewrote nothing, so the kernel's idealization is its own text read on the extended reals.
-/
import proofs.«171593_j36550171689598_1_alg».proof.Defs
import proofs.«171593_j36550171689598_1_alg».proof.Proof.Gen.Kernel
import proofs.«171593_j36550171689598_1_alg».proof.Proof.Gen.Kernel.Skeleton
import proofs.«171593_j36550171689598_1_alg».proof.Proof.Gen.Kernel.Launch
import proofs.«171593_j36550171689598_1_alg».proof.Proof.Gen.Kernel.Points
import proofs.«171593_j36550171689598_1_alg».proof.Proof.Gen.Kernel.Frame
import proofs.«171593_j36550171689598_1_alg».proof.Proof.Gen.KernelIdeal
import proofs.«171593_j36550171689598_1_alg».proof.Proof.Gen.KernelIdeal.Skeleton
import proofs.«171593_j36550171689598_1_alg».proof.Proof.Gen.KernelIdeal.Launch
import proofs.«171593_j36550171689598_1_alg».proof.Proof.Gen.KernelIdeal.Points
import proofs.«171593_j36550171689598_1_alg».proof.Proof.Gen.KernelIdeal.Frame
import proofs.«171593_j36550171689598_1_alg».proof.Proof.Gen.ReferenceIdeal
import proofs.«171593_j36550171689598_1_alg».proof.Proof.Gen.Pre_finite_inputs
import proofs.«171593_j36550171689598_1_alg».proof.Proof.KRun
import proofs.«171593_j36550171689598_1_alg».proof.Proof.Fold
import proofs.«171593_j36550171689598_1_alg».proof.Proof.Parts
import proofs.«171593_j36550171689598_1_alg».proof.Proof.RefRun
import proofs.«171593_j36550171689598_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both runs end, the kernel's result at the network over its own layer parts, the reference's at the network over the
    host's; the parts are equal functions, and the arguments agree. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.Fold.result m ρ c), (h c).2⟩)
    (Cert.KernelIdeal.RunV.run_main (F := Ideal) m ρ), ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7⟩ := hagree c
  rw [Cert.ReferenceIdeal.RefValue.res_eq m' c, e0, e1, e2, e3, e4, e5, e6, e7,
    Cert.Gcn.kerD128_eq, Cert.Gcn.kerD64_eq, Cert.Gcn.kerAct128_eq, Cert.Gcn.kerOut64_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
